-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S500000x2 : Shape := ⟨2, ![500000, 2]⟩
abbrev S128x128 : Shape := ⟨2, ![128, 128]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S100000x128 .f32) (main_arg1 : IVec S800000 32) (main_arg2 : IVec S800000 32) (main_arg3 : FVec F S800000 .f32) (main_arg4 : IVec S500000x2 32) (main_arg5 : FVec F S128x128 .f32) (main_arg6 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S100000x128 : Shape := ⟨2, ![100000, 128]⟩
abbrev S800000 : Shape := ⟨1, ![800000]⟩
abbrev S500000x2 : Shape := ⟨2, ![500000, 2]⟩
abbrev S128x128 : Shape := ⟨2, ![128, 128]⟩
abbrev S128x64 : Shape := ⟨2, ![128, 64]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S100000x64 : Shape := ⟨2, ![100000, 64]⟩
abbrev S5000x64 : Shape := ⟨2, ![5000, 64]⟩
abbrev S800000x64 : Shape := ⟨2, ![800000, 64]⟩
abbrev S500000x1 : Shape := ⟨2, ![500000, 1]⟩
abbrev S500000 : Shape := ⟨1, ![500000]⟩
abbrev S500000x64 : Shape := ⟨2, ![500000, 64]⟩

abbrev nBuf : Space → Nat
  | .hbm => 70
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S500000x2, .i32⟩
  | .hbm, ⟨5, _⟩ => ⟨S128x128, .f32⟩
  | .hbm, ⟨6, _⟩ => ⟨S128x64, .f32⟩
  | .hbm, ⟨7, _⟩ => ⟨S100000x128, .bf16⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .bf16⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S100000x128, .f32⟩
  | .hbm, ⟨26, _⟩ => ⟨S100000x64, .f32⟩
  | .hbm, ⟨27, _⟩ => ⟨S100000x64, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .bf16⟩
  | .hbm, ⟨37, _⟩ => ⟨S800000x64, .f32⟩
  | .hbm, ⟨38, _⟩ => ⟨S800000x1, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S100000x64, .f32⟩
  | .hbm, ⟨43, _⟩ => ⟨S800000x1, .i32⟩
  | .hbm, ⟨44, _⟩ => ⟨S100000x64, .f32⟩
  | .hbm, ⟨45, _⟩ => ⟨S500000x1, .i32⟩
  | .hbm, ⟨46, _⟩ => ⟨S500000, .i32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x64, .f32⟩
  | .hbm, ⟨56, _⟩ => ⟨S500000x1, .i32⟩
  | .hbm, ⟨57, _⟩ => ⟨S500000, .i32⟩
  | .hbm, ⟨58, _⟩ => ⟨S_, .i32⟩
  | .hbm, ⟨59, _⟩ => ⟨S500000, .i32⟩
  | .hbm, ⟨60, _⟩ => ⟨S500000, .i1⟩
  | .hbm, ⟨61, _⟩ => ⟨S_, .i32⟩
  | .hbm, ⟨62, _⟩ => ⟨S500000, .i32⟩
  | .hbm, ⟨63, _⟩ => ⟨S500000, .i32⟩
  | .hbm, ⟨64, _⟩ => ⟨S500000, .i32⟩
  | .hbm, ⟨65, _⟩ => ⟨S500000x1, .i32⟩
  | .hbm, ⟨66, _⟩ => ⟨S500000x64, .f32⟩
  | .hbm, ⟨67, _⟩ => ⟨S500000x64, .f32⟩
  | .hbm, ⟨68, _⟩ => ⟨S_, .f32⟩
  | .hbm, ⟨69, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_6 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  reducesTo_S500000x64_S500000_d1 : S500000x64.ReducesTo [1] S500000
  h_S_ : 0 < S_.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  gather_S100000x64_S500000x1_S500000x64_1_0_n_n_0_1_164_wf : GatherDims.WF S100000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S500000x2 : Shape := ⟨2, ![500000, 2]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S100000x64 : Shape := ⟨2, ![100000, 64]⟩
abbrev S500000x1 : Shape := ⟨2, ![500000, 1]⟩
abbrev S500000 : Shape := ⟨1, ![500000]⟩
abbrev S500000x64 : Shape := ⟨2, ![500000, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S500000x2, .i32⟩
  | .hbm, ⟨5, _⟩ => ⟨S128x128, .f32⟩
  | .hbm, ⟨6, _⟩ => ⟨S128x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S100000x128, .f32⟩
  | .hbm, ⟨21, _⟩ => ⟨S800000x1, .i32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S100000x128, .f32⟩
  | .hbm, ⟨41, _⟩ => ⟨S800000x1, .i32⟩
  | .hbm, ⟨42, _⟩ => ⟨S100000x128, .f32⟩
  | .hbm, ⟨43, _⟩ => ⟨S100000x64, .f32⟩
  | .hbm, ⟨44, _⟩ => ⟨S500000x1, .i32⟩
  | .hbm, ⟨45, _⟩ => ⟨S500000, .i32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x64, .f32⟩
  | .hbm, ⟨55, _⟩ => ⟨S500000x1, .i32⟩
  | .hbm, ⟨56, _⟩ => ⟨S500000, .i32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x64, .f32⟩
  | .hbm, ⟨66, _⟩ => ⟨S500000x64, .f32⟩
  | .hbm, ⟨67, _⟩ => ⟨S_, .f32⟩
  | .hbm, ⟨68, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  reducesTo_S500000x64_S500000_d1 : S500000x64.ReducesTo [1] S500000
  h_S_ : 0 < S_.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S500000x1_S500000x64_1_0_n_n_0_1_164_wf : GatherDims.WF S100000x64 S500000x1 S500000x64 [1] [0] [] [0] [] 1 ![1, 64]

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

class Facts : Prop extends Facts₀ where

variable [Facts]
-- ==== Proof.KernelRun.lean ====
/-
  The idealized kernel's run, with its RESULT named.

  @main is four segments: the host operations that build the first layer's aggregated features, the first dense
  layer (a grid of 20 row blocks), the second dense layer (the same grid), and the host operations that aggregate once
  more and decode the pairs. The buffers' contents at the four boundaries are a fold through @main (`W1 … W4`); this
  module states that every weakly fair execution ends with the result buffer at the last boundary's contents, `W4`,
  and the argument arrays as launched. What `W4` holds at the result is read back in `KernelValue`.
-/
import proofs.«116764_j41695542509975_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched: the run over the four segments, whose last thread state holds
    every unscoped buffer at `W4`; the result is one of them. -/
theorem run_named : θ_run defs (onTc (τ := τ) (main (F := F))) ⟨m, fun _ => 0, ρ⟩ (fun r => ∀ c : Dev nD,
      r.2.mem ((c.tc : Thread nD τ).loc main_v51) = W4 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v51 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KRun

end
-- ==== Proof.KernelTerms.lean ====
/-
  The idealized kernel's host-side terms, named.

  Around its two dense layers the kernel computes, on the host: the column of edge sources with negative numbers
  wrapped (`srcColumn`) and the column of edge targets (`dstColumn`); a SEGMENT SUM of weighted rows — row
  `cols e` of the features (gathered through a rounding to bf16 and back, the identity on extended reals), times the
  edge weight, added into row `rows e` of a zero array — once over 128 columns before the first layer (`aggregate128`)
  and once over 64 columns after the second (`aggregate64`); and the DECODER: for each pair of nodes the sum over the
  64 columns of the product of the two nodes' rows (`decode`).
-/
import proofs.«116764_j41695542509975_2_alg».proof.KernelIdeal
import proofs.«116764_j41695542509975_2_alg».proof.Proof.Gen.KernelIdeal
import Idealize.ShloMosaic.PureOps.Ideal

noncomputable section

namespace Cert.KernelIdeal.Terms

open Cert.KernelIdeal Cert.KernelIdeal.Gen Idealize.ShloMosaic

/-- Node numbers with the negative ones wrapped around (`n < 0 ↦ n + 100000`). -/
def wrap800000 (a : IVec S800000 32) : IVec S800000 32 :=
  select (cmpi .slt a (broadcastInDim S800000 ![] bcast_S_S800000 (constantI S_ 32 0#32)))
    (addi a (broadcastInDim S800000 ![] bcast_S_S800000 (constantI S_ 32 100000#32))) a

/-- The edges' source nodes, wrapped, as one column of start indices. -/
def srcColumn (cols : IVec S800000 32) : IVec S800000x1 32 :=
  broadcastInDim S800000x1 ![0] bcast_S800000_S800000x1_0 (wrap800000 cols)

/-- The edges' target nodes as one column of scatter indices. -/
def dstColumn (rows : IVec S800000 32) : IVec S800000x1 32 :=
  broadcastInDim S800000x1 ![0] bcast_S800000_S800000x1_0 rows

/-- The segment sum of weighted gathered rows, 128 columns wide. -/
def aggregate128 (x : FVec Ideal S100000x128 .f32) (rows cols : IVec S800000 32) (vals : FVec Ideal S800000 .f32) :
    FVec Ideal S100000x128 .f32 :=
  Host.scatterAdd (F := Ideal) scatter_S100000x128_S800000x1_S800000x128_1_0_0_1
    (broadcastInDim S100000x128 ![] bcast_S_S100000x128 (constant (F := Ideal) S_ .f32 0x00000000#32))
    (dstColumn rows)
    (mulf
      (broadcastInDim S800000x128 ![0, 1] bcast_S800000x1_S800000x128_0_1
        (broadcastInDim S800000x1 ![0] bcast_S800000_S800000x1_0 vals))
      (extf .f32
        (Host.gather gather_S100000x128_S800000x1_S800000x128_1_0_n_n_0_1_1128
          (truncf .bf16 x bitsLt_bf16_f32) (srcColumn cols))
        bitsLt_bf16_f32))

/-- The segment sum of weighted gathered rows, 64 columns wide. -/
def aggregate64 (x : FVec Ideal S100000x64 .f32) (rows cols : IVec S800000 32) (vals : FVec Ideal S800000 .f32) :
    FVec Ideal S100000x64 .f32 :=
  Host.scatterAdd (F := Ideal) scatter_S100000x64_S800000x1_S800000x64_1_0_0_1
    (broadcastInDim S100000x64 ![] bcast_S_S100000x64 (constant (F := Ideal) S_ .f32 0x00000000#32))
    (dstColumn rows)
    (mulf
      (broadcastInDim S800000x64 ![0, 1] bcast_S800000x1_S800000x64_0_1
        (broadcastInDim S800000x1 ![0] bcast_S800000_S800000x1_0 vals))
      (extf .f32
        (Host.gather gather_S100000x64_S800000x1_S800000x64_1_0_n_n_0_1_164
          (truncf .bf16 x bitsLt_bf16_f32) (srcColumn cols))
        bitsLt_bf16_f32))

/-- One endpoint of every pair (column `k` of the pairs), wrapped, as a column of start indices. -/
def endpoint (k : Fin 2 → Nat) (hs : S500000x2.Slices k S500000x1) (p : IVec S500000x2 32) : IVec S500000x1 32 :=
  broadcastInDim S500000x1 ![0] bcast_S500000_S500000x1_0
    (select
      (cmpi .slt (shapeCast S500000 (extractStridedSlice S500000x1 k p hs) shapeCasts_S500000x1_S500000)
        (broadcastInDim S500000 ![] bcast_S_S500000 (constantI S_ 32 0#32)))
      (addi (shapeCast S500000 (extractStridedSlice S500000x1 k p hs) shapeCasts_S500000x1_S500000)
        (broadcastInDim S500000 ![] bcast_S_S500000 (constantI S_ 32 100000#32)))
      (shapeCast S500000 (extractStridedSlice S500000x1 k p hs) shapeCasts_S500000x1_S500000))

/-- The decoder: for every pair, the sum over the columns of the product of its two endpoints' rows. -/
def decode (p : IVec S500000x2 32) (h : FVec Ideal S100000x64 .f32) : FVec Ideal S500000 .f32 :=
  Host.reduceAdd (F := Ideal)
    (mulf
      (Host.gather gather_S100000x64_S500000x1_S500000x64_1_0_n_n_0_1_164 h
        (endpoint ![0, 0] slices_S500000x2_S500000x1_0_0 p))
      (Host.gather gather_S100000x64_S500000x1_S500000x64_1_0_n_n_0_1_164 h
        (endpoint ![0, 1] slices_S500000x2_S500000x1_0_1 p)))
    (constant (F := Ideal) S_ .f32 0x00000000#32) reducesTo_S500000x64_S500000_d1 h_S_

end Cert.KernelIdeal.Terms

end
-- ==== Proof.KernelTail.lean ====
/-
  The kernel's two stretches of host operations, read back.

  Before the first dense layer @main runs 18 host operations: the segment sum of the node features, left in the
  layer's input array. After the second dense layer it runs 43: the second segment sum (over the layer's output, 64
  columns wide) and the decoder over the pairs, left in the result buffer. Each is stated from ANY contents `V` of
  the buffers at the stretch's start: the edges, weights and pairs are read from the argument buffers.
-/
import proofs.«116764_j41695542509975_2_alg».proof.Proof.Gen.KernelIdeal.Launch
import proofs.«116764_j41695542509975_2_alg».proof.Proof.KernelTerms
import Idealize.ShloMosaic.Lib.StableHlo.Run

set_option maxRecDepth 16384

noncomputable section

namespace Cert.KernelIdeal.Tail

open Cert.KernelIdeal Cert.KernelIdeal.Gen Cert.KernelIdeal.Terms
open Idealize.ShloMosaic Idealize.ShloMosaic.TcCoe Idealize.SL.Sem Idealize.ShloMosaic.StableHlo

set_option maxHeartbeats 40000000 in
/-- The result after the last stretch, from any contents `V` at its start. -/
theorem result_after (V : Valuation τ sig (Elt Ideal)) :
    StableHlo.after hostOps2 V (Proc.devRef .tc main_v51)
      = decode (V (Proc.devRef .tc main_arg4))
          (aggregate64 (V (Proc.devRef .tc main_v16)) (V (Proc.devRef .tc main_arg1)) (V (Proc.devRef .tc main_arg2))
            (V (Proc.devRef .tc main_arg3))) := by
  after_results_simp <;> rfl

set_option maxHeartbeats 40000000 in
/-- The first layer's input array after the FIRST stretch (18 host operations), from any contents `V` at its start:
    the segment sum of the node features, everything read from the argument buffers. -/
theorem aggregated_after (V : Valuation τ sig (Elt Ideal)) :
    StableHlo.after hostOps0 V (Proc.devRef .tc main_v14)
      = aggregate128 (V (Proc.devRef .tc main_arg0)) (V (Proc.devRef .tc main_arg1)) (V (Proc.devRef .tc main_arg2))
          (V (Proc.devRef .tc main_arg3)) := by
  after_results_simp <;> rfl

end Cert.KernelIdeal.Tail

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.Dense1.lean ====
/-
  THE FIRST DENSE LAYER (the first pallas_call), as one function of whole arrays, at the ideal values.

  The call runs over 20 grid points; point `t` is given rows `5000 t … 5000 t + 4999` of the aggregated features
  `A : [100000, 128]` and the whole weight `W : [128, 128]`, multiplies them (the two roundings to bf16 are the
  identity on extended reals, the product starts from the zero accumulator), clamps at zero and writes the block back
  to the same rows of the output. So the output array ends holding, at `(i, j)`,

      max (∑ k, A (i, k) * W (k, j)) 0 ,

  whatever the buffers held when the call was entered (`V`): every row lies in exactly one point's block.
-/
import proofs.«116764_j41695542509975_2_alg».proof.Proof.Gen.KernelIdeal.Frame
import proofs.«116764_j41695542509975_2_alg».proof.Proof.LibRowOps
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Dense1

open Cert.KernelIdeal Cert.KernelIdeal.Gen
open Idealize.ShloMosaic Idealize.ShloMosaic.TcCoe Idealize.ShloMosaic.ValueIdx Idealize.SL.Sem
open Idealize.ShloMosaic.Pipeline (Dat)

/-- A dense layer clamped at zero: row `i` of `A` against column `j` of `W`, then the maximum with `0`. -/
def reluMM (A : S100000x128.Idx → EReal) (W : S128x128.Idx → EReal) : S100000x128.Idx → EReal :=
  fun i => max (∑ k : Fin 128, A (ix2 (i 0) k) * W (ix2 k (i 1))) 0

theorem reluMM_apply (A : S100000x128.Idx → EReal) (W : S128x128.Idx → EReal) (i : Fin 100000) (j : Fin 128) :
    reluMM A W (ix2 i j) = max (∑ k : Fin 128, A (ix2 i k) * W (ix2 k j)) 0 := rfl

/-- The body's stored value at `(p, q)` of its block: the block's row `p` against the weight's column `q`, clamped. -/
theorem payload_apply (x0 : Vec Ideal S5000x128 .f32) (x1 : Vec Ideal S128x128 .f32) (p : Fin 5000) (q : Fin 128) :
    k0_pay1 (F := Ideal) x0 x1 (ix2 p q) = max (∑ k : Fin 128, x0 (ix2 p k) * x1 (ix2 k q)) 0 := by
  unfold k0_pay1
  rw [maximumf_apply, broadcast_apply]
  refine congrArg₂ max ?_ Ideal.ofBits_zero_f32
  refine (RowOps.matmul_zero_plain_apply dot_S5000x128_S128x128_S5000x128_1_0_0_1_n_n ⟨_, rfl⟩ none _ _ p q).trans ?_
  simp only [truncf_apply, shapeCast_self]

theorem hz : (![0, 0] : Fin 2 → Nat) = fun _ => 0 := funext fun a => by fin_cases a <;> rfl

/-- The printed index maps over the grid: the features' and the output's blocks are the point's own row block, the
    weight's block is the whole weight. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

section
variable (V : (c : Dev nD) → (b : Ref sig .tc) → Buf (Elt Ideal) ((c : Thread nD τ).loc b))

/-- What point `t` writes back is its block of the clamped product of the arrays the call finds. -/
theorem flushed_eq (c : Dev nD) (t : Fin cfg0.N) :
    (dat0 V c).flushed 2 t = ((cfg0.win 2).blk t).view.read (Elt Ideal) (reluMM (V c main_v14) (V c main_arg5)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4⟩ := idx_facts t
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (ix2 p q)
    = reluMM (V c main_v14) (V c main_arg5) (((cfg0.win 2).blk t).view.emb (ix2 p q))
  refine (payload_apply (iblk0 V c 0 t) (iblk0 V c 1 t) p q).trans ?_
  unfold reluMM
  refine congrArg (fun s => max s 0) (Finset.sum_congr rfl fun k _ => ?_)
  have hA : iblk0 V c 0 t (ix2 p k) = V c main_v14 (ix2 ((((cfg0.win 2).blk t).view.emb (ix2 p q)) 0) k) := by
    show V c main_v14 (((cfg0.win 0).blk t).view.emb (ix2 p k)) = _
    refine congrArg (V c main_v14) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  have hW : iblk0 V c 1 t (ix2 k q) = V c main_arg5 (ix2 k ((((cfg0.win 2).blk t).view.emb (ix2 p q)) 1)) := by
    show V c main_arg5 (((cfg0.win 1).blk t).view.emb (ix2 k q)) = _
    refine congrArg (V c main_arg5) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  rw [hA, hW]

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v15).slice (win0_2.rect t)).set ↔ _
  rw [View.set_slice_whole, Rect.mem_set_unit]
  exact Iff.rfl

/-- Every index of the output is in the block of the point that owns its row: point `row / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- THE OUTPUT ARRAY after the call: the clamped product of the features and the weight as the call found them. -/
theorem final (c : Dev nD) : (dat0 V c).arrAt 2 cfg0.N = reluMM (V c main_v14) (V c main_arg5) :=
  (dat0 V c).arrAt_eq_of_cover 2 (reluMM (V c main_v14) (V c main_arg5)) (fun t _ => flushed_eq V c t) cover

end

end Cert.KernelIdeal.Dense1

end
-- ==== Proof.Dense2.lean ====
/-
  THE SECOND DENSE LAYER (the second pallas_call), as one function of whole arrays, at the ideal values.

  The same grid of 20 row blocks: point `t` is given rows `5000 t … 5000 t + 4999` of the hidden features
  `H : [100000, 128]` and the whole weight `W : [128, 64]`, multiplies them (the roundings to bf16 are the identity on
  extended reals, the product starts from the zero accumulator) and writes the block back to the same rows of the
  output, with no clamp. So the output array ends holding, at `(i, j)`, the sum over `k` of `H (i, k) * W (k, j)`,
  whatever the buffers held when the call was entered (`V`).
-/
import proofs.«116764_j41695542509975_2_alg».proof.Proof.Gen.KernelIdeal.Frame
import proofs.«116764_j41695542509975_2_alg».proof.Proof.LibRowOps
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Dense2

open Cert.KernelIdeal Cert.KernelIdeal.Gen
open Idealize.ShloMosaic Idealize.ShloMosaic.TcCoe Idealize.ShloMosaic.ValueIdx Idealize.SL.Sem
open Idealize.ShloMosaic.Pipeline (Dat)

/-- A dense layer: row `i` of `H` against column `j` of `W`. -/
def rowsTimes (H : S100000x128.Idx → EReal) (W : S128x64.Idx → EReal) : S100000x64.Idx → EReal :=
  fun i => ∑ k : Fin 128, H (ix2 (i 0) k) * W (ix2 k (i 1))

theorem rowsTimes_apply (H : S100000x128.Idx → EReal) (W : S128x64.Idx → EReal) (i : Fin 100000) (j : Fin 64) :
    rowsTimes H W (ix2 i j) = ∑ k : Fin 128, H (ix2 i k) * W (ix2 k j) := rfl

/-- The body's stored value at `(p, q)` of its block: the block's row `p` against the weight's column `q`. -/
theorem payload_apply (x0 : Vec Ideal S5000x128 .f32) (x1 : Vec Ideal S128x64 .f32) (p : Fin 5000) (q : Fin 64) :
    k1_pay1 (F := Ideal) x0 x1 (ix2 p q) = ∑ k : Fin 128, x0 (ix2 p k) * x1 (ix2 k q) := by
  unfold k1_pay1
  refine (RowOps.matmul_zero_plain_apply dot_S5000x128_S128x64_S5000x64_1_0_0_1_n_n ⟨_, rfl⟩ none _ _ p q).trans ?_
  simp only [truncf_apply, shapeCast_self]

theorem hz : (![0, 0] : Fin 2 → Nat) = fun _ => 0 := funext fun a => by fin_cases a <;> rfl

/-- The printed index maps over the grid: the features' and the output's blocks are the point's own row block, the
    weight's block is the whole weight. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every row block is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

section
variable (V : (c : Dev nD) → (b : Ref sig .tc) → Buf (Elt Ideal) ((c : Thread nD τ).loc b))

/-- What point `t` writes back is its block of the product of the arrays the call finds. -/
theorem flushed_eq (c : Dev nD) (t : Fin cfg1.N) :
    (dat1 V c).flushed 2 t = ((cfg1.win 2).blk t).view.read (Elt Ideal) (rowsTimes (V c main_v15) (V c main_arg6)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4⟩ := idx_facts t
  funext y
  obtain ⟨p, q, rfl⟩ : ∃ (p : Fin 5000) (q : Fin 64), y = ix2 p q := ⟨y 0, y 1, eq_ix2 y⟩
  show k1_pay1 (F := Ideal) (iblk1 V c 0 t) (iblk1 V c 1 t) (ix2 p q)
    = rowsTimes (V c main_v15) (V c main_arg6) (((cfg1.win 2).blk t).view.emb (ix2 p q))
  refine (payload_apply (iblk1 V c 0 t) (iblk1 V c 1 t) p q).trans ?_
  unfold rowsTimes
  refine Finset.sum_congr rfl fun k _ => ?_
  have hH : iblk1 V c 0 t (ix2 p k) = V c main_v15 (ix2 ((((cfg1.win 2).blk t).view.emb (ix2 p q)) 0) k) := by
    show V c main_v15 (((cfg1.win 0).blk t).view.emb (ix2 p k)) = _
    refine congrArg (V c main_v15) (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 128 + 1 * k.val = k.val
      omega
  have hW : iblk1 V c 1 t (ix2 k q) = V c main_arg6 (ix2 k ((((cfg1.win 2).blk t).view.emb (ix2 p q)) 1)) := by
    show V c main_arg6 (((cfg1.win 1).blk t).view.emb (ix2 k q)) = _
    refine congrArg (V c main_arg6) (funext fun a => Fin.ext ?_)
    match a with
    | ⟨0, _⟩ =>
      show win1_1.index t (0 : Fin 2) * 128 + 1 * k.val = k.val
      omega
    | ⟨1, _⟩ =>
      show win1_1.index t (1 : Fin 2) * 64 + 1 * q.val = win1_2.index t (1 : Fin 2) * 64 + 1 * q.val
      omega
  rw [hH, hW]

/-- An index of the output is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v16).slice (win1_2.rect t)).set ↔ _
  rw [View.set_slice_whole, Rect.mem_set_unit]
  exact Iff.rfl

/-- Every index of the output is in the block of the point that owns its row: point `row / 5000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- THE OUTPUT ARRAY after the call: the product of the hidden features and the weight as the call found them. -/
theorem final (c : Dev nD) : (dat1 V c).arrAt 2 cfg1.N = rowsTimes (V c main_v15) (V c main_arg6) :=
  (dat1 V c).arrAt_eq_of_cover 2 (rowsTimes (V c main_v15) (V c main_arg6)) (fun t _ => flushed_eq V c t) cover

end

end Cert.KernelIdeal.Dense2

end
-- ==== Proof.KernelValue.lean ====
/-
  What the idealized kernel's result buffer holds after the run, as a term of the argument arrays.

  The buffers' contents at @main's boundaries are a fold: `W1` after the first stretch of host operations, `W2` after
  the first dense layer, `W3` after the second, `W4` after the last stretch. Read backwards at the result:
  the last stretch decodes the segment sum of the second layer's output array (`Tail.result_after`); that array is the
  hidden features times the second weight (`Dense2.final`); the hidden features are the first layer's output array,
  the clamped product of the aggregated features and the first weight (`Dense1.final`); the aggregated features are
  the first stretch's segment sum of the node features. The edges, weights and pairs are read from argument buffers
  that no host operation and no layer writes, so they hold the launch contents at every boundary.
-/
import proofs.«116764_j41695542509975_2_alg».proof.Proof.Gen.KernelIdeal.Frame
import proofs.«116764_j41695542509975_2_alg».proof.Proof.KernelTerms
import proofs.«116764_j41695542509975_2_alg».proof.Proof.KernelTail
import proofs.«116764_j41695542509975_2_alg».proof.Proof.Dense1
import proofs.«116764_j41695542509975_2_alg».proof.Proof.Dense2
import Idealize.ShloMosaic.Lib.StableHlo.Run

set_option maxRecDepth 16384

noncomputable section

namespace Cert.KernelIdeal.KValue

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg)

/-- No operation of the first stretch writes the buffer the goal names: it holds its launch contents after it. -/
local macro "first_stretch_keeps" : tactic => `(tactic| (
  refine (StableHlo.after_of_forall_not_mem _ _ (List.forall_iff_forall_mem.mp ?_)).trans rfl
  simp only [hostOps0, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem W1_main_arg1 (c : Dev nD) : W1 m ρ c (Proc.devRef .tc main_arg1) = m ((c : Thread nD τ).loc main_arg1) := by
  first_stretch_keeps
theorem W1_main_arg2 (c : Dev nD) : W1 m ρ c (Proc.devRef .tc main_arg2) = m ((c : Thread nD τ).loc main_arg2) := by
  first_stretch_keeps
theorem W1_main_arg3 (c : Dev nD) : W1 m ρ c (Proc.devRef .tc main_arg3) = m ((c : Thread nD τ).loc main_arg3) := by
  first_stretch_keeps
theorem W1_main_arg4 (c : Dev nD) : W1 m ρ c (Proc.devRef .tc main_arg4) = m ((c : Thread nD τ).loc main_arg4) := by
  first_stretch_keeps
theorem W1_main_arg5 (c : Dev nD) : W1 m ρ c (Proc.devRef .tc main_arg5) = m ((c : Thread nD τ).loc main_arg5) := by
  first_stretch_keeps
theorem W1_main_arg6 (c : Dev nD) : W1 m ρ c (Proc.devRef .tc main_arg6) = m ((c : Thread nD τ).loc main_arg6) := by
  first_stretch_keeps

/-- The second weight is as launched when the second layer is entered. -/
theorem W2_main_arg6 (c : Dev nD) : W2 m ρ c (Proc.devRef .tc main_arg6) = m ((c : Thread nD τ).loc main_arg6) :=
  (W2_of_ne m ρ c main_arg6 (by decide)).trans (W1_main_arg6 m ρ c)

/-- The edges, the edge weights and the pairs are as launched when the last stretch begins. -/
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_main_arg1 m ρ c))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_main_arg2 m ρ c))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_main_arg3 m ρ c))
theorem W3_main_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_main_arg4 m ρ c))

/-- The first stretch leaves the aggregated node features in the first layer's input array. -/
theorem aggregated (c : Dev nD) :
    W1 m ρ c (Proc.devRef .tc main_v14)
      = aggregate128 (m ((c : Thread nD τ).loc main_arg0)) (m ((c : Thread nD τ).loc main_arg1))
          (m ((c : Thread nD τ).loc main_arg2)) (m ((c : Thread nD τ).loc main_arg3)) := by
  exact Tail.aggregated_after (W0 m ρ c)

/-- The first layer leaves the hidden features: the clamped product of the aggregated features and the first weight. -/
theorem hidden (c : Dev nD) :
    W2 m ρ c (Proc.devRef .tc main_v15)
      = Dense1.reluMM
          (aggregate128 (m ((c : Thread nD τ).loc main_arg0)) (m ((c : Thread nD τ).loc main_arg1))
            (m ((c : Thread nD τ).loc main_arg2)) (m ((c : Thread nD τ).loc main_arg3)))
          (m ((c : Thread nD τ).loc main_arg5)) :=
  (W2_arr m ρ c 2).trans ((Dense1.final (V1 m ρ) c).trans
    (congrArg₂ Dense1.reluMM (aggregated m ρ c) (W1_main_arg5 m ρ c)))

/-- The second layer leaves the hidden features times the second weight. -/
theorem projected (c : Dev nD) :
    W3 m ρ c (Proc.devRef .tc main_v16)
      = Dense2.rowsTimes
          (Dense1.reluMM
            (aggregate128 (m ((c : Thread nD τ).loc main_arg0)) (m ((c : Thread nD τ).loc main_arg1))
              (m ((c : Thread nD τ).loc main_arg2)) (m ((c : Thread nD τ).loc main_arg3)))
            (m ((c : Thread nD τ).loc main_arg5)))
          (m ((c : Thread nD τ).loc main_arg6)) :=
  (W3_arr m ρ c 2).trans ((Dense2.final (V2 m ρ) c).trans
    (congrArg₂ Dense2.rowsTimes (hidden m ρ c) (W2_main_arg6 m ρ c)))

/-- The kernel's value: the decoder of the segment sum of (clamped (segment sum of x) · W1) · W2. -/
def value (a0 : FVec Ideal S100000x128 .f32) (a1 a2 : IVec S800000 32) (a3 : FVec Ideal S800000 .f32)
    (a4 : IVec S500000x2 32) (a5 : FVec Ideal S128x128 .f32) (a6 : FVec Ideal S128x64 .f32) : FVec Ideal S500000 .f32 :=
  decode a4 (aggregate64 (Dense2.rowsTimes (Dense1.reluMM (aggregate128 a0 a1 a2 a3) a5) a6) a1 a2 a3)

/-- THE RESULT BUFFER at the last boundary is the kernel's value of the launch contents of the arguments. -/
theorem result_value (c : Dev nD) :
    W4 m ρ c (Proc.devRef .tc main_v51)
      = value (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (Tail.result_after (W3 m ρ c)).trans ?_
  rw [projected, W3_main_arg1, W3_main_arg2, W3_main_arg3, W3_main_arg4]
  rfl

end Cert.KernelIdeal.KValue

end
-- ==== Proof.RefTerms.lean ====
/-
  The idealized reference's terms, named, and its run's result in those names.

  The reference is one line of host operations: the segment sum of weighted gathered rows (128 columns), a dense
  layer clamped at zero (`layer1`); the segment sum again and a second dense layer (`layer2`); and the decoder over
  the pairs. Its generated run ends at one composed term of the arguments, which is these definitions unfolded.
-/
import proofs.«116764_j41695542509975_2_alg».proof.ReferenceIdeal
import proofs.«116764_j41695542509975_2_alg».proof.Proof.Gen.ReferenceIdeal
import proofs.«116764_j41695542509975_2_alg».proof.Proof.Gen.ReferenceIdeal.Run
import Idealize.ShloMosaic.PureOps.Ideal

noncomputable section

namespace Cert.ReferenceIdeal.Terms

open Cert.ReferenceIdeal Cert.ReferenceIdeal.Gen Idealize.ShloMosaic Idealize.SL.Sem

/-- Node numbers with the negative ones wrapped around (`n < 0 ↦ n + 100000`). -/
def wrap800000 (a : IVec S800000 32) : IVec S800000 32 :=
  select (cmpi .slt a (broadcastInDim S800000 ![] bcast_S_S800000 (constantI S_ 32 0#32)))
    (addi a (broadcastInDim S800000 ![] bcast_S_S800000 (constantI S_ 32 100000#32))) a

/-- The edges' source nodes, wrapped, as one column of start indices. -/
def srcColumn (cols : IVec S800000 32) : IVec S800000x1 32 :=
  broadcastInDim S800000x1 ![0] bcast_S800000_S800000x1_0 (wrap800000 cols)

/-- The edges' target nodes as one column of scatter indices. -/
def dstColumn (rows : IVec S800000 32) : IVec S800000x1 32 :=
  broadcastInDim S800000x1 ![0] bcast_S800000_S800000x1_0 rows

/-- The segment sum of weighted gathered rows, 128 columns wide. -/
def aggregate128 (x : FVec Ideal S100000x128 .f32) (rows cols : IVec S800000 32) (vals : FVec Ideal S800000 .f32) :
    FVec Ideal S100000x128 .f32 :=
  Host.scatterAdd (F := Ideal) scatter_S100000x128_S800000x1_S800000x128_1_0_0_1
    (broadcastInDim S100000x128 ![] bcast_S_S100000x128 (constant (F := Ideal) S_ .f32 0x00000000#32))
    (dstColumn rows)
    (mulf
      (broadcastInDim S800000x128 ![0, 1] bcast_S800000x1_S800000x128_0_1
        (broadcastInDim S800000x1 ![0] bcast_S800000_S800000x1_0 vals))
      (Host.gather gather_S100000x128_S800000x1_S800000x128_1_0_n_n_0_1_1128 x (srcColumn cols)))

/-- The first layer: aggregate, multiply by the weight, clamp at zero. -/
def layer1 (x : FVec Ideal S100000x128 .f32) (rows cols : IVec S800000 32) (vals : FVec Ideal S800000 .f32)
    (w : FVec Ideal S128x128 .f32) : FVec Ideal S100000x128 .f32 :=
  maximumf
    (Host.dotGeneral (F := Ideal) dot_S100000x128_S128x128_S100000x128_1_0_0_1_n_n none (aggregate128 x rows cols vals) w)
    (broadcastInDim S100000x128 ![] bcast_S_S100000x128 (constant (F := Ideal) S_ .f32 0x00000000#32))

/-- The second layer: aggregate, multiply by the weight. -/
def layer2 (h : FVec Ideal S100000x128 .f32) (rows cols : IVec S800000 32) (vals : FVec Ideal S800000 .f32)
    (w : FVec Ideal S128x64 .f32) : FVec Ideal S100000x64 .f32 :=
  Host.dotGeneral (F := Ideal) dot_S100000x128_S128x64_S100000x64_1_0_0_1_n_n none (aggregate128 h rows cols vals) w

/-- One endpoint of every pair (column `k` of the pairs), wrapped, as a column of start indices. -/
def endpoint (k : Fin 2 → Nat) (hs : S500000x2.Slices k S500000x1) (p : IVec S500000x2 32) : IVec S500000x1 32 :=
  broadcastInDim S500000x1 ![0] bcast_S500000_S500000x1_0
    (select
      (cmpi .slt (shapeCast S500000 (extractStridedSlice S500000x1 k p hs) shapeCasts_S500000x1_S500000)
        (broadcastInDim S500000 ![] bcast_S_S500000 (constantI S_ 32 0#32)))
      (addi (shapeCast S500000 (extractStridedSlice S500000x1 k p hs) shapeCasts_S500000x1_S500000)
        (broadcastInDim S500000 ![] bcast_S_S500000 (constantI S_ 32 100000#32)))
      (shapeCast S500000 (extractStridedSlice S500000x1 k p hs) shapeCasts_S500000x1_S500000))

/-- The decoder: for every pair, the sum over the columns of the product of its two endpoints' rows. -/
def decode (p : IVec S500000x2 32) (h : FVec Ideal S100000x64 .f32) : FVec Ideal S500000 .f32 :=
  Host.reduceAdd (F := Ideal)
    (mulf
      (Host.gather gather_S100000x64_S500000x1_S500000x64_1_0_n_n_0_1_164 h
        (endpoint ![0, 0] slices_S500000x2_S500000x1_0_0 p))
      (Host.gather gather_S100000x64_S500000x1_S500000x64_1_0_n_n_0_1_164 h
        (endpoint ![0, 1] slices_S500000x2_S500000x1_0_1 p)))
    (constant (F := Ideal) S_ .f32 0x00000000#32) reducesTo_S500000x64_S500000_d1 h_S_

/-- The run's result term is the decoder of the second layer of the first layer of the arguments. -/
theorem result_eq (m : (ℓ : Loc nD τ sig) → Buf (Elt Ideal) ℓ) (c : Dev nD) :
    Cert.ReferenceIdeal.Value.res_main_v48 (F := Ideal) m c
      = decode (m ((c.tc : Thread nD τ).loc main_arg4))
          (layer2
            (layer1 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg5)))
            (m ((c.tc : Thread nD τ).loc main_arg1)) (m ((c.tc : Thread nD τ).loc main_arg2))
            (m ((c.tc : Thread nD τ).loc main_arg3)) (m ((c.tc : Thread nD τ).loc main_arg6))) := by
  unfold Cert.ReferenceIdeal.Value.res_main_v48
  rfl

end Cert.ReferenceIdeal.Terms

end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.LibSegLinear.lean ====
/-
  A segment sum is linear — the law on the extended reals, for real entries — with the closure of "is a real" under
  the operations a layer is made of, and two broadcast reads.

  A SEGMENT SUM takes rows `h e` (one per edge `e`), weights row `e` by a number `v e`, and adds the weighted rows that
  land on a given node. It is linear in the rows, so it commutes with a matrix applied on the right of every row:

      ∑ e landing, v e * (∑ k, h e k * w k)  =  ∑ k, (∑ e landing, v e * h e k) * w k .

  On the extended reals this needs the entries to be real numbers (distributivity fails at the infinities), so the law
  is proved in `ℝ` and carried over through the coercion. The sums start from the accumulator's `0`, as the scatter
  that computes them does.

  Also here: an extended real "is a real" (`IsReal`) and the operations that keep it so — sums, products, maxima and
  conditional terms — with which the reals are followed through a layer; and the reads at an index of the two
  broadcasts that turn a vector of edge weights into a matrix of the messages' shape.
-/
import Idealize.ShloMosaic.PureOps.Ideal
import Idealize.ShloMosaic.Lib.ValueIdx
import Idealize.ShloMosaic.Lib.Pipeline.Value
import proofs.«116764_j41695542509975_2_alg».proof.Proof.LibFiniteEntries

noncomputable section

open scoped BigOperators

namespace Idealize.ShloMosaic.SegLinear

open Idealize.ShloMosaic Idealize.ShloMosaic.ValueIdx Idealize.ShloMosaic.FiniteEntries

/-! ## Extended reals that are reals -/

/-- `x` is (the coercion of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split_ifs <;> assumption

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## The segment sum is linear -/

theorem coe_ite_zero (p : Prop) [Decidable p] (a : ℝ) :
    (if p then (a : EReal) else 0) = ((if p then a else 0 : ℝ) : EReal) := by
  split_ifs <;> simp

/-- The law in `ℝ`: the matrix passes inside the conditional sum over the edges. -/
theorem seg_matmul_real {E K : Type} [Fintype E] [Fintype K] (land : E → Prop) [DecidablePred land]
    (v : E → ℝ) (h : E → K → ℝ) (w : K → ℝ) :
    ∑ e, (if land e then v e * ∑ k, h e k * w k else 0) = ∑ k, (∑ e, if land e then v e * h e k else 0) * w k := by
  simp only [Finset.sum_mul]
  rw [Finset.sum_comm]
  refine Finset.sum_congr rfl fun e _ => ?_
  split_ifs
  · rw [Finset.mul_sum]; exact Finset.sum_congr rfl fun k _ => (mul_assoc _ _ _).symm
  · simp

/-- The law on the extended reals, for real entries, both sums begun at the accumulator's zero. -/
theorem seg_matmul {E K : Type} [Fintype E] [Fintype K] (land : E → Prop) [DecidablePred land]
    (v : E → ℝ) (h : E → K → ℝ) (w : K → ℝ) :
    (0 : EReal) + ∑ e, (if land e then (v e : EReal) * ∑ k, (h e k : EReal) * (w k : EReal) else 0)
      = ∑ k, ((0 : EReal) + ∑ e, if land e then (v e : EReal) * (h e k : EReal) else 0) * (w k : EReal) := by
  have hL : ∀ e, (if land e then (v e : EReal) * ∑ k, (h e k : EReal) * (w k : EReal) else 0)
      = ((if land e then v e * ∑ k, h e k * w k else 0 : ℝ) : EReal) := fun e => by
    rw [← coe_ite_zero]
    refine if_congr Iff.rfl ?_ rfl
    rw [EReal.coe_mul, coe_sum]
    simp only [EReal.coe_mul]
  have hR : ∀ k e, (if land e then (v e : EReal) * (h e k : EReal) else 0)
      = ((if land e then v e * h e k else 0 : ℝ) : EReal) := fun k e => by
    rw [← coe_ite_zero, EReal.coe_mul]
  rw [zero_add, Finset.sum_congr rfl fun e _ => hL e, ← coe_sum]
  have hk : ∀ k, ((0 : EReal) + ∑ e, if land e then (v e : EReal) * (h e k : EReal) else 0) * (w k : EReal)
      = (((∑ e, if land e then v e * h e k else 0) * w k : ℝ) : EReal) := fun k => by
    rw [zero_add, Finset.sum_congr rfl fun e _ => hR k e, ← coe_sum, ← EReal.coe_mul]
  rw [Finset.sum_congr rfl fun k _ => hk k, ← coe_sum]
  exact congrArg _ (seg_matmul_real land v h w)

/-! ## The weights' broadcasts, read at an index -/

variable {α : Type}

/-- A vector kept as one column: entry `(e, 0)` is the vector's entry `e`. -/
theorem vec_as_column_apply {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) :=
  broadcastInDim_apply ![0] hb v (ix2 e z) (ix1 e) fun a => by
    match a with
    | ⟨0, _⟩ =>
      show e.val = if E = 1 then 0 else e.val
      split
      · have := e.isLt; omega
      · rfl

/-- A column repeated along the rows' direction: entry `(e, q)` is the column's entry `e`. -/
theorem column_along_rows_apply {E C : Nat} (hb : (⟨2, ![E, 1]⟩ : Shape).BroadcastsInDim ⟨2, ![E, C]⟩ ![0, 1])
    (u : (⟨2, ![E, 1]⟩ : Shape).Idx → α) (e : Fin E) (q : Fin C) :
    broadcastInDim ⟨2, ![E, C]⟩ ![0, 1] hb u (ix2 e q) = u (ix2 e (0 : Fin 1)) :=
  broadcastInDim_apply ![0, 1] hb u (ix2 e q) (ix2 e (0 : Fin 1)) fun a => by
    match a with
    | ⟨0, _⟩ =>
      show e.val = if E = 1 then 0 else e.val
      split
      · have := e.isLt; omega
      · rfl
    | ⟨1, _⟩ => rfl

end Idealize.ShloMosaic.SegLinear

end
-- ==== Proof.LibScatterRows.lean ====
/-
  THE ACCUMULATING ROW SCATTER READ AT AN INDEX, at the ideal instance (floats are extended reals).

  A row scatter adds update row `e` of an `[E, C]` array of updates into row `idx[e, 0]` of an `[N, C]` operand:
  `"stablehlo.scatter"` with an `add` body and dimension numbers update_window_dims = [1], inserted_window_dims = [0],
  scatter_dims_to_operand_dims = [0], index_vector_dim = 1, over scatter indices of shape `[E, 1]` (what a segment sum
  over the leading axis lowers to). The scatter index is read SIGNED and is NOT clamped: an update row whose index is
  outside `[0, N)` is dropped. At the ideal instance the result is the exact sum, so element `(n, q)` of the result is

      x[n, q] + ∑ e : Fin E, if idx[e, 0] = n then upd[e, q] else 0

  (`scatterAdd_rows_apply`): a plain sum over the `E` update rows whose landing condition `idx[e, 0] = n` does not
  mention the column `q` nor the column count `C` — two row scatters through the same indices, of different widths,
  are read with one common condition. The extents `N`, `E`, `C` and the index width `w` are arbitrary; nothing here
  enumerates a row range.

  Road: on these dimension numbers the window start is the row's scatter index on axis 0 and `0` on axis 1
  (`start_zero`, `start_one`), the window coordinate is `0` on axis 0 and the update's column on axis 1
  (`window_zero`, `window_one`); so an update index `j` lands at `(n, q)` iff `idx[j 0, 0] = n` and `j 1 = q`
  (`resultIdx?_eq_some_iff`; the bounds `0 ≤ · < N`, `· < C` hold by themselves then). The filtered sum over update
  indices becomes a double sum over (row, column) whose inner sum has exactly one nonzero term.
-/
import Idealize.ShloMosaic.PureOps.Ideal
import Idealize.ShloMosaic.PureOps.Contract
import Idealize.ShloMosaic.Lib.ValueIdx

noncomputable section

open scoped BigOperators

namespace Idealize.ShloMosaic.ScatterRows

open Idealize.ShloMosaic Idealize.ShloMosaic.ValueIdx

/-- The dimension numbers of a row scatter of `[E, C]` updates into an `[N, C]` operand through `[E, 1]` scatter
    indices: the updates' axis 1 is the window axis, the operand's axis 0 is inserted and is the one the scatter
    index addresses, the index vector lies along the indices' axis 1. `wf` is any proof of the conditions. -/
abbrev rowDims (N E C : Nat)
    (wf : ScatterDims.WF (⟨2, ![N, C]⟩ : Shape) ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat}
  (wf : ScatterDims.WF (⟨2, ![N, C]⟩ : Shape) ⟨2, ![E, 1]⟩ ⟨2, ![E, C]⟩ [1] [0] [0] 1)

/-- On the row axis the window starts at the update row's scatter index, read signed. -/
theorem start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`: the map does not name that axis. -/
theorem start_one (j : (⟨2, ![E, C]⟩ : Shape).Idx) (idx : IVec ⟨2, ![E, 1]⟩ w) :
    (rowDims N E C wf).start j idx 1 = 0 := by
  unfold ScatterDims.start
  have h : ¬ (1 : Fin 2) ∈ ([0] : List (Fin 2)) := by decide
  rw [dif_neg (show ¬ (1 : Fin 2) ∈ (rowDims N E C wf).scatterDimsToOperandDims from h)]

/-- The window coordinate on the row axis is `0`: that axis is inserted. -/
theorem window_zero (j : (⟨2, ![E, C]⟩ : Shape).Idx) :
    (rowDims N E C wf).window j 0 = 0 := by
  unfold ScatterDims.window
  have h : ¬ (0 : Fin 2) ∈ (List.finRange 2).filter (fun a => a ∉ ([0] : List (Fin 2))) := by decide
  rw [dif_neg (show ¬ (0 : Fin 2) ∈ (rowDims N E C wf).sKept from h)]

/-- The window coordinate on the column axis is the update's column. -/
theorem window_one (j : (⟨2, ![E, C]⟩ : Shape).Idx) :
    (rowDims N E C wf).window j 1 = (j 1).val := by
  unfold ScatterDims.window
  have h : (1 : Fin 2) ∈ (List.finRange 2).filter (fun a => a ∉ ([0] : List (Fin 2))) := by decide
  rw [dif_pos (show (1 : Fin 2) ∈ (rowDims N E C wf).sKept from h)]
  rfl

/-- An update index lands at operand element `(n, q)` exactly when its row's scatter index, read signed, is `n`
    and its column is `q`. -/
theorem resultIdx?_eq_some_iff (j : (⟨2, ![E, C]⟩ : Shape).Idx) (idx : IVec ⟨2, ![E, 1]⟩ w) (n : Fin N) (q : Fin C) :
    (rowDims N E C wf).resultIdx? j idx = some (ix2 n q) ↔
      (idx (ix2 (j 0) (0 : Fin 1))).toInt = (n.val : Int) ∧ j 1 = q := by
  have hs0 := start_zero wf j idx
  have hs1 := start_one wf j idx
  have hw0 := window_zero wf j
  have hw1 := window_one wf j
  have hn : n.val < N := n.isLt
  have hq : q.val < C := q.isLt
  have hj1 : (j 1).val < C := (j 1).isLt
  unfold ScatterDims.resultIdx?
  split_ifs with h
  · rw [Option.some.injEq]
    constructor
    · intro hf
      have h0 := congrArg (fun f => (f 0).val) hf
      have h1 := congrArg (fun f => (f 1).val) hf
      have b0 := (h 0).1
      simp only [hs0, hw0] at h0 b0
      simp only [hs1, hw1] at h1
      refine ⟨?_, Fin.ext ?_⟩
      · change ((idx (ix2 (j 0) (0 : Fin 1))).toInt + ((0 : Nat) : Int)).toNat = n.val at h0
        omega
      · change ((0 : Int) + ((j 1).val : Int)).toNat = q.val at h1
        omega
    · rintro ⟨ht, hjq⟩
      funext a
      refine Fin.ext ?_
      match a with
      | ⟨0, _⟩ =>
        show ((rowDims N E C wf).start j idx 0 + ((rowDims N E C wf).window j 0 : Int)).toNat = n.val
        rw [hs0, hw0, ht]; omega
      | ⟨1, _⟩ =>
        show ((rowDims N E C wf).start j idx 1 + ((rowDims N E C wf).window j 1 : Int)).toNat = q.val
        rw [hs1, hw1, ← hjq]; omega
  · constructor
    · intro hf; exact absurd hf (by simp)
    · rintro ⟨ht, hjq⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, hw0, ht]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, hw1]; omega

end

/-- THE ROW SCATTER READ AT `(n, q)`, at the ideal instance: the operand's element plus the sum, over ALL `E` update
    rows, of the update's element in column `q` when the row's scatter index (read signed) is `n`, and `0` when it is
    not. The landing condition does not depend on the column nor on the number of columns. -/
theorem scatterAdd_rows_apply {N E C w : Nat}
    (wf : ScatterDims.WF (⟨2, ![N, C]⟩ : Shape) ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32)
        (⟨[1], [0], [0], 1, wf⟩ : ScatterDims ⟨2, ![N, C]⟩ ⟨2, ![E, 1]⟩ ⟨2, ![E, C]⟩) x idx upd (ix2 n q)
      = x (ix2 n q) + ∑ e : Fin E,
          if (idx (ix2 e (0 : Fin 1))).toInt = (n.val : Int) then upd (ix2 e q) else 0 := by
  show Ideal.hostScatterAdd (rowDims N E C wf) x idx upd (ix2 n q) = _
  unfold Ideal.hostScatterAdd
  congr 1
  rw [Finset.sum_filter, sum_idx2]
  refine Finset.sum_congr rfl fun e _ => ?_
  have hc : ∀ b : Fin C, (if (rowDims N E C wf).resultIdx? (ix2 e b) idx = some (ix2 n q) then upd (ix2 e b) else 0)
      = if ((idx (ix2 e (0 : Fin 1))).toInt = (n.val : Int) ∧ b = q) then upd (ix2 e b) else 0 := fun b =>
    if_congr (resultIdx?_eq_some_iff wf (ix2 e b) idx n q) rfl rfl
  rw [Finset.sum_congr rfl fun b _ => hc b]
  by_cases ht : (idx (ix2 e (0 : Fin 1))).toInt = (n.val : Int)
  · simp only [ht, true_and, if_true]
    rw [Finset.sum_ite_eq' Finset.univ q (fun b => upd (ix2 e b)), if_pos (Finset.mem_univ q)]
  · simp only [ht, false_and, if_false, Finset.sum_const_zero]

/-- The same for ANY dimension numbers between these shapes whose four lists are a row scatter's (for a record stated
    field by field, each hypothesis is `rfl`). -/
theorem scatterAdd_rows_apply' {N E C w : Nat}
    (d : ScatterDims (⟨2, ![N, C]⟩ : Shape) ⟨2, ![E, 1]⟩ ⟨2, ![E, C]⟩)
    (h1 : d.updateWindowDims = [1]) (h2 : d.insertedWindowDims = [0])
    (h3 : d.scatterDimsToOperandDims = [0]) (h4 : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32) d x idx upd (ix2 n q)
      = x (ix2 n q) + ∑ e : Fin E,
          if (idx (ix2 e (0 : Fin 1))).toInt = (n.val : Int) then upd (ix2 e q) else 0 := by
  obtain ⟨uw, iw, sd, iv, wf⟩ := d
  simp only at h1 h2 h3 h4
  subst h1 h2 h3 h4
  exact scatterAdd_rows_apply wf x idx upd n q

end Idealize.ShloMosaic.ScatterRows

end
-- ==== Proof.LibGatherRows.lean ====
/-
  THE ROW GATHER READ AT AN INDEX.

  A row gather takes, for each of `E` start indices, one whole row of an `[N, C]` operand: `"stablehlo.gather"` with
  offset_dims = [1], collapsed_slice_dims = [0], start_index_map = [0], index_vector_dim = 1 and slice sizes [1, C], over
  start indices of shape `[E, 1]` (what indexing an array by an integer vector along its leading axis lowers to).
  Element `(e, q)` of the result is the operand at row `idx[e, 0]` — read SIGNED and CLAMPED into `[0, N − 1]`, so
  that the one-row slice fits — and column `q` (`gather_rows_apply`). The clamp is the identity on a start index already
  inside the range (`clampRow_of_toInt_eq`). The extents and the index width are arbitrary.

  Road: on these dimension numbers the operand coordinate on axis 0 is the clamped start alone (no batching axis, the
  axis is collapsed), and on axis 1 it is the result's column alone (the start index map does not name that axis).
-/
import Idealize.ShloMosaic.PureOps.ShapeOps
import Idealize.ShloMosaic.Lib.ValueIdx

namespace Idealize.ShloMosaic.GatherRows

open Idealize.ShloMosaic Idealize.ShloMosaic.ValueIdx

variable {α : Type}

/-- The row a start-index word addresses: the word read signed, negative words at row 0, words past the end at the
    last row. -/
def clampRow (N : Nat) (hN : 0 < N) {w : Nat} (b : BitVec w) : Fin N := ⟨min b.toInt.toNat (N - 1), by omega⟩

/-- A start index that is a row number is not moved by the clamp. -/
theorem clampRow_of_toInt_eq {N : Nat} (hN : 0 < N) {w : Nat} (b : BitVec w) (n : Fin N) (h : b.toInt = (n.val : Int)) :
    clampRow N hN b = n := by
  apply Fin.ext
  show min b.toInt.toNat (N - 1) = n.val
  have := n.isLt
  rw [h]; omega

/-- The dimension numbers of a row gather from an `[N, C]` operand through `[E, 1]` start indices. -/
abbrev rowDims (N E C : Nat)
    (wf : GatherDims.WF (⟨2, ![N, C]⟩ : Shape) ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the clamped row of start index `e`, column `q`. -/
theorem gather_rows_apply {N E C w : Nat} (hN : 0 < N)
    (wf : GatherDims.WF (⟨2, ![N, C]⟩ : Shape) ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q) = x (ix2 (clampRow N hN (idx (ix2 e (0 : Fin 1)))) q) := by
  unfold Host.gather
  congr 1
  funext a
  refine Fin.ext ?_
  match a with
  | ⟨0, _⟩ =>
    show (rowDims N E C wf).start (ix2 e q) idx 0 + (rowDims N E C wf).batchCoord (ix2 e q) 0
      + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e q) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e q) idx 1 + (rowDims N E C wf).batchCoord (ix2 e q) 1
      + (rowDims N E C wf).offCoord (ix2 e q) 1 = q.val
    rw [GatherDims.batchCoord_eq_zero _ _ _ List.not_mem_nil]
    have hs : (rowDims N E C wf).start (ix2 e q) idx 1 = 0 := by
      unfold GatherDims.start
      have h : ¬ (1 : Fin 2) ∈ ([0] : List (Fin 2)) := by decide
      rw [dif_neg (show ¬ (1 : Fin 2) ∈ (rowDims N E C wf).startIndexMap from h)]
    have ho : (rowDims N E C wf).offCoord (ix2 e q) 1 = q.val := by
      unfold GatherDims.offCoord
      have h : (1 : Fin 2) ∈ (rowDims N E C wf).sKept :=
        (GatherDims.mem_sKept _ _).mpr ⟨(by decide : ¬ (1 : Fin 2) ∈ ([0] : List (Fin 2))), List.not_mem_nil⟩
      rw [dif_pos h]
      rfl
    rw [hs, ho]; omega

/-- The same for ANY dimension numbers between these shapes whose fields are a row gather's (for a record stated field
    by field, each hypothesis is `rfl`). -/
theorem gather_rows_apply' {N E C w : Nat} (hN : 0 < N)
    (d : GatherDims (⟨2, ![N, C]⟩ : Shape) ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (clampRow N hN (idx (ix2 e (0 : Fin 1)))) q) := by
  obtain ⟨od, cd, ob, sb, sm, iv, ss, wf⟩ := d
  simp only at h1 h2 h3 h4 h5 h6 h7
  subst h1 h2 h3 h4 h5 h6 h7
  exact gather_rows_apply hN wf x idx e q

end Idealize.ShloMosaic.GatherRows
-- ==== Proof.SegReads.lean ====
/-
  A weighted segment sum, read at an index.

  `segSum ri ci vals H` at `(n, q)`: starting from zero, for every edge `e` whose target (the scatter index
  `ri (e, 0)`, read signed, unclamped — an edge whose target is no node is dropped) is node `n`, add the edge's
  weight `vals e` times entry `q` of row `src e` of `H`, where `src e` is the start index `ci (e, 0)` read signed
  and clamped into the node range. This is what the host's scatter-add of the weighted gathered rows into a zero
  array holds at `(n, q)` (`weighted_scatter_apply` with `gathered_apply`), for any number of columns.

  It keeps reals real (`isReal_segSum`), and on real entries it commutes with a matrix applied on the right of the
  rows (`segSum_matmul`, from `SegLinear.seg_matmul`).
-/
import Idealize.ShloMosaic.PureOps.Ideal
import Idealize.ShloMosaic.PureOps.Ideal.Laws
import Idealize.ShloMosaic.Lib.ValueIdx
import Idealize.ShloMosaic.Lib.Pipeline.Value
import proofs.«116764_j41695542509975_2_alg».proof.Proof.LibScatterRows
import proofs.«116764_j41695542509975_2_alg».proof.Proof.LibGatherRows
import proofs.«116764_j41695542509975_2_alg».proof.Proof.LibRowOps
import proofs.«116764_j41695542509975_2_alg».proof.Proof.LibSegLinear

noncomputable section

open scoped BigOperators

namespace Cert.SegReads

open Idealize.ShloMosaic Idealize.ShloMosaic.ValueIdx Idealize.ShloMosaic.GatherRows Idealize.ShloMosaic.SegLinear

/-- The node an edge's start index addresses: read signed, clamped into `[0, 100000)`. -/
def src (ci : IVec ⟨2, ![800000, 1]⟩ 32) (e : Fin 800000) : Fin 100000 :=
  clampRow 100000 (by decide) (ci (ix2 e (0 : Fin 1)))

/-- The weighted segment sum at `(n, q)`. -/
def segSum {C : Nat} (ri ci : IVec ⟨2, ![800000, 1]⟩ 32) (vals : (⟨1, ![800000]⟩ : Shape).Idx → EReal)
    (H : (⟨2, ![100000, C]⟩ : Shape).Idx → EReal) (n : Fin 100000) (q : Fin C) : EReal :=
  0 + ∑ e : Fin 800000,
    if (ri (ix2 e (0 : Fin 1))).toInt = (n.val : Int) then vals (ix1 e) * H (ix2 (src ci e) q) else 0

/-- The scatter-add, into a zero array, of rows `G e` each weighted by `vals e` (the weights broadcast to the rows'
    shape), read at `(n, q)`. -/
theorem weighted_scatter_apply {C : Nat}
    (d : ScatterDims (⟨2, ![100000, C]⟩ : Shape) ⟨2, ![800000, 1]⟩ ⟨2, ![800000, C]⟩)
    (h1 : d.updateWindowDims = [1]) (h2 : d.insertedWindowDims = [0])
    (h3 : d.scatterDimsToOperandDims = [0]) (h4 : d.indexVectorDim = 1)
    (hz : (⟨0, ![]⟩ : Shape).BroadcastsInDim ⟨2, ![100000, C]⟩ (![] : Fin 0 → Fin 2))
    (hb1 : (⟨1, ![800000]⟩ : Shape).BroadcastsInDim ⟨2, ![800000, 1]⟩ ![0])
    (hb2 : (⟨2, ![800000, 1]⟩ : Shape).BroadcastsInDim ⟨2, ![800000, C]⟩ ![0, 1])
    (ri : IVec ⟨2, ![800000, 1]⟩ 32) (vals : FVec Ideal ⟨1, ![800000]⟩ .f32) (G : FVec Ideal ⟨2, ![800000, C]⟩ .f32)
    (n : Fin 100000) (q : Fin C) :
    Host.scatterAdd (F := Ideal) (φ := .f32) d
        (broadcastInDim ⟨2, ![100000, C]⟩ ![] hz (constant (F := Ideal) ⟨0, ![]⟩ .f32 0x00000000#32)) ri
        (mulf (broadcastInDim ⟨2, ![800000, C]⟩ ![0, 1] hb2 (broadcastInDim ⟨2, ![800000, 1]⟩ ![0] hb1 vals)) G) (ix2 n q)
      = 0 + ∑ e : Fin 800000,
          if (ri (ix2 e (0 : Fin 1))).toInt = (n.val : Int) then vals (ix1 e) * G (ix2 e q) else 0 := by
  rw [ScatterRows.scatterAdd_rows_apply' d h1 h2 h3 h4]
  refine congrArg₂ (· + ·) ?_ (Finset.sum_congr rfl fun e _ => ?_)
  · rw [RowOps.broadcastInDim_scalar_apply, constant_apply, Ideal.ofBits_zero_f32]
  · rw [mulf_apply, column_along_rows_apply, vec_as_column_apply]

/-- A gathered row, read at `(e, q)`: row `src e` of the operand. -/
theorem gathered_apply {C : Nat} {α : Type}
    (g : GatherDims (⟨2, ![100000, C]⟩ : Shape) ⟨2, ![800000, 1]⟩ ⟨2, ![800000, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (x : (⟨2, ![100000, C]⟩ : Shape).Idx → α) (ci : IVec ⟨2, ![800000, 1]⟩ 32) (e : Fin 800000) (q : Fin C) :
    Host.gather g x ci (ix2 e q) = x (ix2 (src ci e) q) :=
  gather_rows_apply' (by decide) g g1 g2 g3 g4 g5 g6 g7 x ci e q

/-- Real weights and real rows give a real segment sum. -/
theorem isReal_segSum {C : Nat} (ri ci : IVec ⟨2, ![800000, 1]⟩ 32) (vals : (⟨1, ![800000]⟩ : Shape).Idx → EReal)
    (H : (⟨2, ![100000, C]⟩ : Shape).Idx → EReal) (hv : ∀ i, IsReal (vals i)) (hH : ∀ i, IsReal (H i))
    (n : Fin 100000) (q : Fin C) : IsReal (segSum ri ci vals H n q) :=
  isReal_zero.add (isReal_sum _ _ fun e _ => ((hv _).mul (hH _)).ite isReal_zero)

/-- THE LAW: on real entries, the segment sum of rows multiplied by a matrix is the segment sum multiplied by the
    matrix. `T` is the array of the multiplied rows. -/
theorem segSum_matmul {B : Nat} (ri ci : IVec ⟨2, ![800000, 1]⟩ 32) (vals : (⟨1, ![800000]⟩ : Shape).Idx → EReal)
    (H : (⟨2, ![100000, 128]⟩ : Shape).Idx → EReal) (W : (⟨2, ![128, B]⟩ : Shape).Idx → EReal)
    (T : (⟨2, ![100000, B]⟩ : Shape).Idx → EReal)
    (hT : ∀ (i : Fin 100000) (q : Fin B), T (ix2 i q) = ∑ k : Fin 128, H (ix2 i k) * W (ix2 k q))
    (hv : ∀ i, IsReal (vals i)) (hH : ∀ i, IsReal (H i)) (hW : ∀ i, IsReal (W i)) (n : Fin 100000) (q : Fin B) :
    segSum ri ci vals T n q = ∑ k : Fin 128, segSum ri ci vals H n k * W (ix2 k q) := by
  choose vr hvr using hv
  choose Hr hHr using hH
  choose Wr hWr using hW
  unfold segSum
  simp only [hT, hvr, hHr, hWr]
  exact seg_matmul (fun e => (ri (ix2 e (0 : Fin 1))).toInt = (n.val : Int)) (fun e => vr (ix1 e))
    (fun e k => Hr (ix2 (src ci e) k)) (fun k => Wr (ix2 k q))

end Cert.SegReads

end
-- ==== Proof.Bridge.lean ====
/-
  The two programs compute one function.

  Both aggregate the node features by the same segment sum and put them through the same clamped dense layer, so
  they have the same hidden features `H` (`hidden_same`). They differ in the second layer: the kernel multiplies
  every row of `H` by the second weight first and takes the segment sum of the products (64 columns), the reference
  takes the segment sum of the rows of `H` (128 columns) and multiplies by the weight afterwards. A segment sum is
  linear, so the two agree — on REAL entries: the law is distributivity, which fails at the infinities. Under the
  precondition the features, the edge weights and both weights are real, hence so are the aggregated and the hidden
  features (`hidden_real`), and the law applies (`second_layer_same`). The decoder is the same operation on both
  sides and is never opened (`value_same`).
-/
import proofs.«116764_j41695542509975_2_alg».proof.Proof.KernelTerms
import proofs.«116764_j41695542509975_2_alg».proof.Proof.RefTerms
import proofs.«116764_j41695542509975_2_alg».proof.Proof.Dense1
import proofs.«116764_j41695542509975_2_alg».proof.Proof.Dense2
import proofs.«116764_j41695542509975_2_alg».proof.Proof.LibSegLinear
import proofs.«116764_j41695542509975_2_alg».proof.Proof.SegReads
import proofs.«116764_j41695542509975_2_alg».proof.Proof.LibRowOps
import Idealize.ShloMosaic.Lib.ValueIdx
import Idealize.ShloMosaic.PureOps.Ideal.Laws

noncomputable section

open scoped BigOperators

namespace Cert.Bridge

open Idealize.ShloMosaic Idealize.ShloMosaic.ValueIdx Idealize.ShloMosaic.SegLinear Cert.SegReads
open Cert.KernelIdeal (S100000x128 S100000x64 S800000 S800000x1 S500000x2 S500000 S128x128 S128x64)
open Cert.KernelIdeal.Dense1 (reluMM)
open Cert.KernelIdeal.Dense2 (rowsTimes)

/-! ## The same columns of indices and the same decoder, under either program's names -/

theorem srcColumn_same (cols : IVec S800000 32) : Cert.ReferenceIdeal.Terms.srcColumn cols = Cert.KernelIdeal.Terms.srcColumn cols := rfl
theorem dstColumn_same (rows : IVec S800000 32) : Cert.ReferenceIdeal.Terms.dstColumn rows = Cert.KernelIdeal.Terms.dstColumn rows := rfl
theorem decode_same (p : IVec S500000x2 32) (h : FVec Ideal S100000x64 .f32) : Cert.ReferenceIdeal.Terms.decode p h = Cert.KernelIdeal.Terms.decode p h := rfl

section
variable (x : FVec Ideal S100000x128 .f32) (rows cols : IVec S800000 32) (vals : FVec Ideal S800000 .f32)
  (w1 : FVec Ideal S128x128 .f32) (w2 : FVec Ideal S128x64 .f32)

/-! ## The three segment sums, read at an index -/

/-- The kernel's 128-column segment sum (its gather goes through a rounding and back: the identity here). -/
theorem aggK128_apply (n : Fin 100000) (k : Fin 128) :
    Cert.KernelIdeal.Terms.aggregate128 x rows cols vals (ix2 n k)
      = segSum (Cert.KernelIdeal.Terms.dstColumn rows) (Cert.KernelIdeal.Terms.srcColumn cols) vals x n k := by
  unfold Cert.KernelIdeal.Terms.aggregate128
  refine (weighted_scatter_apply (C := 128) Cert.KernelIdeal.scatter_S100000x128_S800000x1_S800000x128_1_0_0_1
    rfl rfl rfl rfl _ _ _ _ _ _ n k).trans ?_
  unfold segSum
  refine congrArg (0 + ·) (Finset.sum_congr rfl fun e _ => ?_)
  rw [extf_apply, gathered_apply Cert.KernelIdeal.gather_S100000x128_S800000x1_S800000x128_1_0_n_n_0_1_1128
    rfl rfl rfl rfl rfl rfl rfl, truncf_apply]

/-- The kernel's 64-column segment sum. -/
theorem aggK64_apply (t : FVec Ideal S100000x64 .f32) (n : Fin 100000) (q : Fin 64) :
    Cert.KernelIdeal.Terms.aggregate64 t rows cols vals (ix2 n q)
      = segSum (Cert.KernelIdeal.Terms.dstColumn rows) (Cert.KernelIdeal.Terms.srcColumn cols) vals t n q := by
  unfold Cert.KernelIdeal.Terms.aggregate64
  refine (weighted_scatter_apply (C := 64) Cert.KernelIdeal.scatter_S100000x64_S800000x1_S800000x64_1_0_0_1
    rfl rfl rfl rfl _ _ _ _ _ _ n q).trans ?_
  unfold segSum
  refine congrArg (0 + ·) (Finset.sum_congr rfl fun e _ => ?_)
  rw [extf_apply, gathered_apply Cert.KernelIdeal.gather_S100000x64_S800000x1_S800000x64_1_0_n_n_0_1_164
    rfl rfl rfl rfl rfl rfl rfl, truncf_apply]

/-- The reference's 128-column segment sum, over the same columns of indices. -/
theorem aggR128_apply (n : Fin 100000) (k : Fin 128) :
    Cert.ReferenceIdeal.Terms.aggregate128 x rows cols vals (ix2 n k)
      = segSum (Cert.KernelIdeal.Terms.dstColumn rows) (Cert.KernelIdeal.Terms.srcColumn cols) vals x n k := by
  unfold Cert.ReferenceIdeal.Terms.aggregate128
  refine (weighted_scatter_apply (C := 128) Cert.ReferenceIdeal.scatter_S100000x128_S800000x1_S800000x128_1_0_0_1
    rfl rfl rfl rfl _ _ _ _ _ _ n k).trans ?_
  rw [dstColumn_same, srcColumn_same]
  unfold segSum
  refine congrArg (0 + ·) (Finset.sum_congr rfl fun e _ => ?_)
  rw [gathered_apply Cert.ReferenceIdeal.gather_S100000x128_S800000x1_S800000x128_1_0_n_n_0_1_1128
    rfl rfl rfl rfl rfl rfl rfl]

/-! ## The hidden features: the same on both sides, and real -/

/-- The kernel's hidden features at `(i, j)`. -/
theorem hiddenK_apply (i : Fin 100000) (j : Fin 128) :
    reluMM (Cert.KernelIdeal.Terms.aggregate128 x rows cols vals) w1 (ix2 i j)
      = max (∑ k : Fin 128, segSum (Cert.KernelIdeal.Terms.dstColumn rows) (Cert.KernelIdeal.Terms.srcColumn cols) vals x i k * w1 (ix2 k j)) 0 := by
  rw [Cert.KernelIdeal.Dense1.reluMM_apply]
  simp only [aggK128_apply]

/-- The reference's hidden features at `(i, j)`: the same expression. -/
theorem hiddenR_apply (i : Fin 100000) (j : Fin 128) :
    Cert.ReferenceIdeal.Terms.layer1 x rows cols vals w1 (ix2 i j)
      = max (∑ k : Fin 128, segSum (Cert.KernelIdeal.Terms.dstColumn rows) (Cert.KernelIdeal.Terms.srcColumn cols) vals x i k * w1 (ix2 k j)) 0 := by
  unfold Cert.ReferenceIdeal.Terms.layer1
  rw [maximumf_apply, RowOps.broadcastInDim_scalar_apply, constant_apply, Ideal.ofBits_zero_f32]
  refine congrArg (max · 0) ?_
  refine (RowOps.dotGeneral_plain_apply Cert.ReferenceIdeal.dot_S100000x128_S128x128_S100000x128_1_0_0_1_n_n ⟨_, rfl⟩
    none _ _ _ i j).trans ?_
  simp only [aggR128_apply]

theorem hidden_same : Cert.ReferenceIdeal.Terms.layer1 x rows cols vals w1 = reluMM (Cert.KernelIdeal.Terms.aggregate128 x rows cols vals) w1 := by
  funext j
  obtain ⟨i, k, rfl⟩ : ∃ (i : Fin 100000) (k : Fin 128), j = ix2 i k := ⟨j 0, j 1, eq_ix2 j⟩
  rw [hiddenR_apply, hiddenK_apply]

theorem hidden_real (hx : ∀ i, IsReal (x i)) (hv : ∀ i, IsReal (vals i)) (hw1 : ∀ i, IsReal (w1 i)) :
    ∀ j, IsReal (reluMM (Cert.KernelIdeal.Terms.aggregate128 x rows cols vals) w1 j) := by
  intro j
  obtain ⟨i, k, rfl⟩ : ∃ (i : Fin 100000) (k : Fin 128), j = ix2 i k := ⟨j 0, j 1, eq_ix2 j⟩
  rw [hiddenK_apply]
  exact (isReal_sum _ _ fun k' _ => (isReal_segSum _ _ vals x hv hx i k').mul (hw1 _)).max isReal_zero

/-! ## The second layers agree -/

theorem second_layer_same (hx : ∀ i, IsReal (x i)) (hv : ∀ i, IsReal (vals i)) (hw1 : ∀ i, IsReal (w1 i))
    (hw2 : ∀ i, IsReal (w2 i)) :
    Cert.KernelIdeal.Terms.aggregate64 (rowsTimes (reluMM (Cert.KernelIdeal.Terms.aggregate128 x rows cols vals) w1) w2) rows cols vals
      = Cert.ReferenceIdeal.Terms.layer2 (Cert.ReferenceIdeal.Terms.layer1 x rows cols vals w1) rows cols vals w2 := by
  funext j
  obtain ⟨n, q, rfl⟩ : ∃ (n : Fin 100000) (q : Fin 64), j = ix2 n q := ⟨j 0, j 1, eq_ix2 j⟩
  rw [hidden_same, aggK64_apply,
    segSum_matmul _ _ vals (reluMM (Cert.KernelIdeal.Terms.aggregate128 x rows cols vals) w1) w2 _
      (fun i q' => Cert.KernelIdeal.Dense2.rowsTimes_apply _ _ i q') hv (hidden_real x rows cols vals w1 hx hv hw1) hw2 n q]
  unfold Cert.ReferenceIdeal.Terms.layer2
  refine ((RowOps.dotGeneral_plain_apply Cert.ReferenceIdeal.dot_S100000x128_S128x64_S100000x64_1_0_0_1_n_n ⟨_, rfl⟩
    none _ _ _ n q).trans ?_).symm
  simp only [aggR128_apply]

end

/-- THE TWO VALUES AGREE: under real features, edge weights and weights, the kernel's decoder of its segment sum is the
    reference's decoder of its second layer. -/
theorem value_same (a0 : FVec Ideal S100000x128 .f32) (a1 a2 : IVec S800000 32) (a3 : FVec Ideal S800000 .f32)
    (a4 : IVec S500000x2 32) (a5 : FVec Ideal S128x128 .f32) (a6 : FVec Ideal S128x64 .f32)
    (h0 : ∀ i, IsReal (a0 i)) (h3 : ∀ i, IsReal (a3 i)) (h5 : ∀ i, IsReal (a5 i)) (h6 : ∀ i, IsReal (a6 i)) :
    Cert.ReferenceIdeal.Terms.decode a4 (Cert.ReferenceIdeal.Terms.layer2 (Cert.ReferenceIdeal.Terms.layer1 a0 a1 a2 a3 a5) a1 a2 a3 a6)
      = Cert.KernelIdeal.Terms.decode a4 (Cert.KernelIdeal.Terms.aggregate64 (rowsTimes (reluMM (Cert.KernelIdeal.Terms.aggregate128 a0 a1 a2 a3) a5) a6) a1 a2 a3) := by
  rw [decode_same, second_layer_same a0 a1 a2 a3 a5 a6 h0 h3 h5 h6]

end Cert.Bridge

end
-- ==== Proof.FiniteInputs.lean ====
/-
  From the precondition to real entries.

  The precondition is the conjunction of four tests "every entry of the array has absolute value below +∞", one for
  each float input: the node features, the edge weights and the two layers' weights. Each test is an `and` over
  all entries, so when the conjunction is true every entry of each of the four arrays is a real number (neither
  infinity). The integer inputs are not constrained.
-/
import proofs.«116764_j41695542509975_2_alg».proof.Pre_finite_inputs
import proofs.«116764_j41695542509975_2_alg».proof.Proof.LibFiniteEntries
import proofs.«116764_j41695542509975_2_alg».proof.Proof.LibSegLinear
import Idealize.ShloMosaic.Lib.Affine
import Idealize.ShloMosaic.Lib.ReduceAll

noncomputable section

namespace Cert.FiniteInputs

open Idealize.ShloMosaic Idealize.ShloMosaic.ValueIdx Idealize.ShloMosaic.FiniteEntries Idealize.ShloMosaic.SegLinear
open Cert.Pre_finite_inputs

variable [Cert.Pre_finite_inputs.Facts]

/-- Under the precondition every entry of the node features, the edge weights and the two weights is a real. -/
theorem entries_real (a0 : FVec Ideal S100000x128 .f32) (a1 : IVec S800000 32) (a2 : IVec S800000 32)
    (a3 : FVec Ideal S800000 .f32) (a4 : IVec S500000x2 32) (a5 : FVec Ideal S128x128 .f32) (a6 : FVec Ideal S128x64 .f32)
    (h : Cert.Pre_finite_inputs.fn (F := Ideal) a0 a1 a2 a3 a4 a5 a6 = fun _ => 1#1) :
    (∀ i, IsReal (a0 i)) ∧ (∀ i, IsReal (a3 i)) ∧ (∀ i, IsReal (a5 i)) ∧ (∀ i, IsReal (a6 i)) := by
  have h0 := congrFun h ix0
  dsimp only [Cert.Pre_finite_inputs.fn, Cert.Pre_finite_inputs.fn_part1] at h0
  obtain ⟨h012, h6⟩ := IntOp.andi_eq_one.1 h0
  obtain ⟨h01, h5⟩ := IntOp.andi_eq_one.1 h012
  obtain ⟨h0', h3⟩ := IntOp.andi_eq_one.1 h01
  exact ⟨fun i => real_of_all a0 _ _ _ _ h0' i, fun i => real_of_all a3 _ _ _ _ h3 i,
    fun i => real_of_all a5 _ _ _ _ h5 i, fun i => real_of_all a6 _ _ _ _ h6 i⟩

end Cert.FiniteInputs

end
-- ==== Proof.lean ====
/-
  A link predictor on a graph: two rounds of message passing, then a dot-product decoder.

  One round aggregates node features over the edges (a SEGMENT SUM: the edge weight times the source node's row, added
  into the target node's row) and applies a dense layer. The reference does, twice, "aggregate, then multiply by the
  weight" (the first round clamped at zero), and decodes each pair of nodes by the dot product of their rows. The kernel
  does the same first round (its dense layer a pallas_call over 20 blocks of 5000 rows), but in the second round it
  multiplies the hidden features by the weight FIRST (a second pallas_call) and aggregates the 64-column products
  afterwards. At the ideal values the roundings to bf16 are the identity, so the one difference is the order of the
  segment sum and the matrix product. A segment sum is linear, and the two orders agree on real entries
  (distributivity, which fails at the infinities); the precondition makes the features, the edge weights and both
  weights real, and reals stay real through the first round.

  The claim's parts: the three frames are the generated ones (the reference's is its generated run, the result
  dropped); nothing was rewritten between the kernel and its idealization; and for the values, the kernel's run with
  its result named (`KernelRun`), that result read back to a term of the arguments (`KernelValue`, over `Dense1`,
  `Dense2`, `KernelTail`), the reference's generated run in the same vocabulary (`RefTerms`), the two terms equal
  (`Bridge`, over `SegReads` and `LibSegLinear`), under real entries (`FiniteInputs`).
-/
import proofs.«116764_j41695542509975_2_alg».proof.Defs
import proofs.«116764_j41695542509975_2_alg».proof.Proof.Gen.Kernel
import proofs.«116764_j41695542509975_2_alg».proof.Proof.Gen.Kernel.Frame
import proofs.«116764_j41695542509975_2_alg».proof.Proof.Gen.KernelIdeal
import proofs.«116764_j41695542509975_2_alg».proof.Proof.Gen.KernelIdeal.Frame
import proofs.«116764_j41695542509975_2_alg».proof.Proof.Gen.ReferenceIdeal
import proofs.«116764_j41695542509975_2_alg».proof.Proof.Gen.ReferenceIdeal.Run
import proofs.«116764_j41695542509975_2_alg».proof.Proof.Gen.Pre_finite_inputs
import proofs.«116764_j41695542509975_2_alg».proof.Proof.KernelRun
import proofs.«116764_j41695542509975_2_alg».proof.Proof.KernelValue
import proofs.«116764_j41695542509975_2_alg».proof.Proof.RefTerms
import proofs.«116764_j41695542509975_2_alg».proof.Proof.Bridge
import proofs.«116764_j41695542509975_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end, from memories agreeing on the arguments, at the kernel's value of the arguments: the kernel's by
    reading its last boundary back, the reference's because its composed term is that value on real entries. -/
theorem algebraic : Cert.algebraic_KernelIdeal_ReferenceIdeal := by
  intro m ρ m' ρ' hpre hagree
  refine ⟨fun c => Cert.KernelIdeal.KValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.result_value m ρ c), (h c).2⟩)
      (Cert.KernelIdeal.KRun.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    obtain ⟨h0, h3, h5, h6⟩ := Cert.FiniteInputs.entries_real _ _ _ _ _ _ _ (hpre c)
    rw [Cert.ReferenceIdeal.Terms.result_eq, e0, e1, e2, e3, e4, e5, e6]
    exact Cert.Bridge.value_same _ _ _ _ _ _ _ h0 h3 h5 h6

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
